-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S_ : Shape := ⟨0, ![]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .bf16⟩
  | .hbm, ⟨7, _⟩ => ⟨S4096x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  bcast_S_S4096x4096 : S_.BroadcastsInDim S4096x4096 (![] : Fin 0 → Fin S4096x4096.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .bf16 = 32 ∨ (Rect.block (s := S4096x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x4096.size a
  hwx0_2 : ∀ i : grid0.Coords, EltTy.bits .f32 = 32 ∨ (Rect.block (s := S4096x4096) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibHostDotPlain.lean ====
/-
  A plain host matrix product read at an index.

  A host `dot_general` of a left operand `[M, K]` by a right operand `[K, N]` that contracts the left operand's
  second axis against the right operand's first, with no batch axis, is at the exact values the textbook product:
  entry `(p, o)` is the sum over `k : Fin K` of `l (p, k) * r (k, o)`, whatever the schedule key. It is the same
  sum a `tpu.matmul` of that layout started from zero computes, so a product computed row block by row block and a
  product computed whole agree entry by entry. Stated for any record whose six axis lists are
  `[1] [0] [0] [1] [] []` (on a printed record each hypothesis is `rfl`), general in the three extents and in the
  operands' float formats.
-/
import Idealize.ShloMosaic.PureOps.Ideal.Laws
import Idealize.ShloMosaic.Lib.ValueIdx
import proofs.«147814_j10136122818965_2_alg».proof.Proof.LibMatmulPlain

noncomputable section

open scoped BigOperators

namespace Cert.HostDotPlain

open Idealize.ShloMosaic Idealize.ShloMosaic.ValueIdx Cert.MatmulPlain

variable {M K N : ℕ}

/-- A plain host matrix product read at `(p, o)`: `∑ k, l (p, k) * r (k, o)`. -/
theorem dotGeneral_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (p : Fin M) (o : Fin N) :
    FloatOps.dotGeneral d prec sched l r (ix2 p o) = ∑ k : Fin K, l (ix2 p k) * r (ix2 k o) := by
  rw [Ideal.dotGeneral_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.HostDotPlain

end
-- ==== Proof.LibHardWeight.lean ====
/-
  A straight-through binary weight, in value.

  The reference spells its weight as  σ(w) + (hard(w) − σ(w)),  where σ(w) = 1 / (1 + e^(−w)) is the logistic
  function and hard(w) is the indicator of  w > 0  read as a number. On the extended reals the logistic function
  takes a REAL value at every argument — 0 at −∞, 1 at +∞, (1 + e^(−r))⁻¹ at a real r — and for a real a and any
  extended real h,  a + (h − a) = h  (at h = ±∞ both sides are that infinity, since a is finite). So the weight is
  hard(w) at every w, finite or not: the soft part cancels exactly.
-/
import Idealize.ShloMosaic.PureOps.Ideal.Laws
import Idealize.ShloMosaic.Lib.IdealHost
import Idealize.ShloMosaic.Lib.ValueIdx

noncomputable section

namespace Cert.HardWeight

open Idealize.ShloMosaic Idealize.ShloMosaic.ValueIdx

/-- Adding a real and then taking it away again changes nothing, at the infinities too. -/
theorem real_add_sub_cancel (a : ℝ) (h : EReal) : (a : EReal) + (h - (a : EReal)) = h := by
  induction h using EReal.rec with
  | bot => rw [EReal.bot_sub, EReal.add_bot]
  | coe b => rw [← EReal.coe_sub, ← EReal.coe_add]; exact congrArg _ (by ring)
  | top => rw [EReal.top_sub_coe, EReal.coe_add_top]

/-- The logistic function is real-valued on the whole extended line. -/
theorem logistic_real (w : EReal) : ∃ a : ℝ, Ideal.logistic w = (a : EReal) := by
  induction w using EReal.rec with
  | bot => exact ⟨0, Ideal.logistic_bot⟩
  | coe r => exact ⟨_, Ideal.logistic_coe r⟩
  | top => exact ⟨1, Ideal.logistic_top⟩

/-- σ(w) + (h − σ(w)) = h  for every extended real w and h. -/
theorem soft_cancels (w h : EReal) :
    Ideal.div 1 (1 + Ideal.exp (-w)) + (h - Ideal.div 1 (1 + Ideal.exp (-w))) = h := by
  obtain ⟨a, ha⟩ := logistic_real w
  have e : Ideal.div 1 (1 + Ideal.exp (-w)) = (a : EReal) := ha
  rw [e]
  exact real_add_sub_cancel a h

variable {S : Shape}

/-- The binary weight: 1 where the raw weight is positive, 0 elsewhere. -/
def hard (W : S.Idx → EReal) : S.Idx → EReal := fun j =>
  (((Ideal.cmp .ogt (W j) (Ideal.ofBits .f32 0x00000000#32)).toNat : ℝ) : EReal)

/-- The reference's weight array — the logistic of the raw weights plus (the indicator minus that logistic) — is the
    binary weight array. -/
theorem ste_eq_hard (hb : (⟨0, ![]⟩ : Shape).BroadcastsInDim S ![]) (W : FVec Ideal S .f32) :
    addf
      (Host.divf (broadcastInDim S ![] hb (constant (F := Ideal) ⟨0, ![]⟩ .f32 0x3F800000#32))
        (addf (broadcastInDim S ![] hb (constant (F := Ideal) ⟨0, ![]⟩ .f32 0x3F800000#32)) (Host.exp (Host.negf W))))
      (subf
        (uitofp .f32 (cmpf .ogt W (broadcastInDim S ![] hb (constant (F := Ideal) ⟨0, ![]⟩ .f32 0x00000000#32))))
        (Host.divf (broadcastInDim S ![] hb (constant (F := Ideal) ⟨0, ![]⟩ .f32 0x3F800000#32))
          (addf (broadcastInDim S ![] hb (constant (F := Ideal) ⟨0, ![]⟩ .f32 0x3F800000#32)) (Host.exp (Host.negf W)))))
      = hard W := by
  funext j
  simp only [addf, subf, Host.divf, Host.exp, Host.negf, uitofp, cmpf, constant, broadcastInDim_scalar_apply,
    Ideal.addf_def, Ideal.subf_def, Ideal.hostDivf_def, Ideal.hostUnary_exp_def, Ideal.hostNegf_def, Ideal.negf_def,
    Ideal.ofBits_def, Ideal.ofBits_one_f32]
  exact soft_cancels (W j) _

end Cert.HardWeight

end
-- ==== Proof.LibBlockSums.lean ====
/-
  Sums cut into consecutive runs, a matrix read at natural-number coordinates, and the textbook product.

  A sum over B·n consecutive naturals is the sum, over its n runs of length B, of each run's sum: run s holds the
  naturals B·s, …, B·s + B − 1. A contraction of length K computed K-block by K-block and added up is therefore the
  whole contraction. To speak of "entry (r, k)" for naturals r and k — a block number times the block's size plus a
  place in the block — a matrix is extended by zero outside its extents; inside them it is the matrix.
-/
import Idealize.ShloMosaic.Lib.ValueIdx

noncomputable section

open scoped BigOperators

namespace Cert.BlockSums

open Idealize.ShloMosaic Idealize.ShloMosaic.ValueIdx

/-- A sum over the first B·n naturals is the sum over n consecutive runs of length B. -/
theorem sum_range_blocks {β : Type*} [AddCommMonoid β] (B : ℕ) (f : ℕ → β) :
    ∀ n : ℕ, ∑ s ∈ Finset.range n, ∑ k ∈ Finset.range B, f (B * s + k) = ∑ K ∈ Finset.range (B * n), f K
  | 0 => by simp
  | n + 1 => by
    rw [Finset.sum_range_succ, sum_range_blocks B f n, Nat.mul_succ, Finset.sum_range_add]

variable {a k b : ℕ}

/-- A matrix read at natural-number coordinates: its entry inside its extents, zero outside. -/
def at2 (X : (⟨2, ![a, b]⟩ : Shape).Idx → EReal) (r c : ℕ) : EReal :=
  if h : r < a ∧ c < b then X (ix2 ⟨r, h.1⟩ ⟨c, h.2⟩) else 0

/-- At the coordinates of an index the extended matrix is the matrix. -/
theorem at2_ix2 (X : (⟨2, ![a, b]⟩ : Shape).Idx → EReal) (p : Fin a) (q : Fin b) :
    at2 X p.val q.val = X (ix2 p q) := by
  unfold at2
  rw [dif_pos ⟨p.isLt, q.isLt⟩]

/-- The same at an index given whole: the extended matrix at the index's two coordinates is the matrix there. -/
theorem at2_val (X : (⟨2, ![a, b]⟩ : Shape).Idx → EReal) (i : (⟨2, ![a, b]⟩ : Shape).Idx) :
    at2 X (i 0).val (i 1).val = X i := by
  rw [show X i = X (ix2 (i 0) (i 1)) from congrArg X (eq_ix2 i)]
  exact at2_ix2 X (i 0) (i 1)

/-- The textbook product of an [a, k] matrix by a [k, b] matrix: entry (p, q) is ∑ over K of X (p, K) · H (K, q). -/
def mm (X : (⟨2, ![a, k]⟩ : Shape).Idx → EReal) (H : (⟨2, ![k, b]⟩ : Shape).Idx → EReal) :
    (⟨2, ![a, b]⟩ : Shape).Idx → EReal :=
  fun i => ∑ K : Fin k, X (ix2 (i 0) K) * H (ix2 K (i 1))

/-- An entry of the product as a sum over natural-number contraction coordinates. -/
theorem mm_eq_sum_range (X : (⟨2, ![a, k]⟩ : Shape).Idx → EReal) (H : (⟨2, ![k, b]⟩ : Shape).Idx → EReal)
    (i : (⟨2, ![a, b]⟩ : Shape).Idx) :
    mm X H i = ∑ K ∈ Finset.range k, at2 X (i 0).val K * at2 H K (i 1).val := by
  unfold mm
  rw [Finset.sum_range]
  refine Finset.sum_congr rfl fun K _ => ?_
  exact (congrArg₂ (· * ·) (at2_ix2 X (i 0) K) (at2_ix2 H K (i 1))).symm

end Cert.BlockSums

end
-- ==== Proof.ReferenceProduct.lean ====
/-
  The reference is the product with the binary weights.

  The reference multiplies x by the array  σ(w) + (hard(w) − σ(w)).  That array is hard(w) entry by entry (the soft part
  cancels on the extended reals, whatever w), and a host product that contracts the left operand's second axis against
  the right operand's first is the textbook product. So the reference's result is  x · hard(w):  entry (p, q) is the sum
  over K of  x (p, K) · hard(w) (K, q).
-/
import proofs.«147814_j10136122818965_2_alg».proof.Proof.Gen.ReferenceIdeal.Run
import proofs.«147814_j10136122818965_2_alg».proof.Proof.LibHostDotPlain
import proofs.«147814_j10136122818965_2_alg».proof.Proof.LibHardWeight
import proofs.«147814_j10136122818965_2_alg».proof.Proof.LibBlockSums

noncomputable section

namespace Cert.ReferenceIdeal.RefValue

open Cert.ReferenceIdeal Cert.ReferenceIdeal.Gen Idealize.ShloMosaic Idealize.ShloMosaic.ValueIdx
open Cert.HardWeight Cert.BlockSums

/-- The reference's result term is the textbook product of x with the binary weights. -/
theorem result_eq (X W : FVec Ideal S4096x4096 .f32) :
    Host.dotGeneral dot_S4096x4096_S4096x4096_S4096x4096_1_0_0_1_n_n none X
      (addf
        (Host.divf (broadcastInDim S4096x4096 ![] bcast_S_S4096x4096 (constant (F := Ideal) S_ .f32 0x3F800000#32))
          (addf (broadcastInDim S4096x4096 ![] bcast_S_S4096x4096 (constant (F := Ideal) S_ .f32 0x3F800000#32))
            (Host.exp (Host.negf W))))
        (subf
          (uitofp .f32 (cmpf .ogt W (broadcastInDim S4096x4096 ![] bcast_S_S4096x4096 (constant (F := Ideal) S_ .f32 0x00000000#32))))
          (Host.divf (broadcastInDim S4096x4096 ![] bcast_S_S4096x4096 (constant (F := Ideal) S_ .f32 0x3F800000#32))
            (addf (broadcastInDim S4096x4096 ![] bcast_S_S4096x4096 (constant (F := Ideal) S_ .f32 0x3F800000#32))
              (Host.exp (Host.negf W))))))
      = mm X (hard W) := by
  rw [ste_eq_hard bcast_S_S4096x4096 W]
  funext i
  obtain ⟨p, q, rfl⟩ : ∃ (p : Fin 4096) (q : Fin 4096), i = ix2 p q := ⟨i 0, i 1, eq_ix2 i⟩
  exact Cert.HostDotPlain.dotGeneral_plain_apply dot_S4096x4096_S4096x4096_S4096x4096_1_0_0_1_n_n rfl rfl rfl rfl rfl rfl
    none .single X (hard W) p q

end Cert.ReferenceIdeal.RefValue

end
-- ==== Proof.KernelBlocks.lean ====
/-
  One grid point of the kernel, read at an index.

  The grid is 2 × 4 × 8, walked in row-major order: point n has row block n / 32, column block n / 8 % 4 and
  contraction block n % 8. At point n the body adds to the resident output block [2048, 1024] the product of the
  left operand's block (rows of row block n / 32, columns of contraction block n % 8: a [2048, 512] piece of x) with
  the right operand's block (rows of contraction block n % 8, columns of column block n / 8 % 4: a [512, 1024] piece of
  the binary weights). So entry (p, q) of the output block gains
      ∑ k < 512,  x (2048·(n / 32) + p, 512·(n % 8) + k) · hard(w) (512·(n % 8) + k, 1024·(n / 8 % 4) + q).
  The left operand the region finds is x itself (narrowing to bf16 is the identity on exact values) and the right
  operand is the binary weight array.
-/
import proofs.«147814_j10136122818965_2_alg».proof.Proof.Gen.KernelIdeal.Value
import proofs.«147814_j10136122818965_2_alg».proof.Proof.LibMatmulPlain
import proofs.«147814_j10136122818965_2_alg».proof.Proof.LibHardWeight
import proofs.«147814_j10136122818965_2_alg».proof.Proof.LibBlockSums
import Idealize.ShloMosaic.Lib.StableHlo.Run
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.HardWeight Cert.BlockSums

variable (m : (ℓ : Loc nD τ sig) → Buf (Elt Ideal) ℓ)

/-! ## The two operands as the region finds them -/

/-- The left operand is x: narrowing to bf16 changes no exact value. -/
theorem V_lhs (c : Dev nD) :
    (V m c main_v0 : S4096x4096.Idx → EReal) = m ((c : Thread nD τ).loc main_arg0) := by
  dsimp only [Gen.V, Gen.hostOps0]; after_results; rfl

/-- The right operand is the binary weight array: the indicator of w > 0 read as a number. -/
theorem V_rhs (c : Dev nD) :
    (V m c main_v3 : S4096x4096.Idx → EReal) = hard (m ((c : Thread nD τ).loc main_arg1)) := by
  dsimp only [Gen.V, Gen.hostOps0]; after_results; rfl

/-! ## The body's arithmetic at an index -/

/-- The accumulating store at (p, q): what the block held plus the product of the two input blocks there. -/
theorem pay2_apply (acc : Vec Ideal S2048x1024 .f32) (x0 : Vec Ideal S2048x512 .bf16) (x1 : Vec Ideal S512x1024 .bf16)
    (p : Fin 2048) (q : Fin 1024) :
    k0_pay2 (F := Ideal) acc x0 x1 (ix2 p q) = acc (ix2 p q) + ∑ k : Fin 512, x0 (ix2 p k) * x1 (ix2 k q) := by
  unfold k0_pay2
  simp only [shapeCast_self]
  exact congrArg (acc (ix2 p q) + ·)
    (Cert.MatmulPlain.matmul_plain_apply dot_S2048x512_S512x1024_S2048x1024_1_0_0_1_n_n rfl rfl rfl rfl rfl rfl none x0 x1 p q)

/-- The zeroing store writes zero everywhere. -/
theorem pay1_apply (y : S2048x1024.Idx) : k0_pay1 (F := Ideal) y = 0 := by
  unfold k0_pay1
  exact Ideal.ofBits_zero_f32

/-! ## The input blocks at a point -/

/-- The left operand's block index at point t: row block t / 32, contraction block t % 8. -/
theorem idx_lhs : ∀ t : Fin cfg0.N, win0_0.index t (0 : Fin 2) = t.val / 32 ∧ win0_0.index t (1 : Fin 2) = t.val % 8 :=
  (by decide +kernel : ∀ t : Fin grid0.N, _)

/-- The right operand's block index at point t: contraction block t % 8, column block t / 8 % 4. -/
theorem idx_rhs : ∀ t : Fin cfg0.N, win0_1.index t (0 : Fin 2) = t.val % 8 ∧ win0_1.index t (1 : Fin 2) = t.val / 8 % 4 :=
  (by decide +kernel : ∀ t : Fin grid0.N, _)

/-- The left block at point t, at place y: the left operand at row 2048·(t / 32) + y₀, column 512·(t % 8) + y₁. -/
theorem lhs_block (c : Dev nD) (t : Fin cfg0.N) (y : S2048x512.Idx) :
    iblk m c 0 t y
      = at2 (a := 4096) (b := 4096) (V m c main_v0) (t.val / 32 * 2048 + (y 0).val) (t.val % 8 * 512 + (y 1).val) := by
  obtain ⟨e0, e1⟩ := idx_lhs t
  have hb0 : (((cfg0.win 0).blk t).view.emb y 0).val = win0_0.index t (0 : Fin 2) * 2048 + 1 * (y 0).val := rfl
  have hb1 : (((cfg0.win 0).blk t).view.emb y 1).val = win0_0.index t (1 : Fin 2) * 512 + 1 * (y 1).val := rfl
  show V m c main_v0 (((cfg0.win 0).blk t).view.emb y) = _
  rw [← at2_val (a := 4096) (b := 4096) (V m c main_v0) (((cfg0.win 0).blk t).view.emb y), hb0, hb1, e0, e1, one_mul,
    one_mul]

/-- The right block at point t, at place y: the right operand at row 512·(t % 8) + y₀, column 1024·(t / 8 % 4) + y₁. -/
theorem rhs_block (c : Dev nD) (t : Fin cfg0.N) (y : S512x1024.Idx) :
    iblk m c 1 t y
      = at2 (a := 4096) (b := 4096) (V m c main_v3) (t.val % 8 * 512 + (y 0).val) (t.val / 8 % 4 * 1024 + (y 1).val) := by
  obtain ⟨e0, e1⟩ := idx_rhs t
  have hb0 : (((cfg0.win 1).blk t).view.emb y 0).val = win0_1.index t (0 : Fin 2) * 512 + 1 * (y 0).val := rfl
  have hb1 : (((cfg0.win 1).blk t).view.emb y 1).val = win0_1.index t (1 : Fin 2) * 1024 + 1 * (y 1).val := rfl
  show V m c main_v3 (((cfg0.win 1).blk t).view.emb y) = _
  rw [← at2_val (a := 4096) (b := 4096) (V m c main_v3) (((cfg0.win 1).blk t).view.emb y), hb0, hb1, e0, e1, one_mul,
    one_mul]

/-! ## What a point adds -/

/-- Point n's addend to the output block at place y: the product of its two input blocks there, written over the
    whole operands at natural-number coordinates. -/
def addend (c : Dev nD) (n : ℕ) (y : S2048x1024.Idx) : EReal :=
  ∑ k ∈ Finset.range 512,
    at2 (a := 4096) (b := 4096) (V m c main_v0) (n / 32 * 2048 + (y 0).val) (n % 8 * 512 + k)
      * at2 (a := 4096) (b := 4096) (V m c main_v3) (n % 8 * 512 + k) (n / 8 % 4 * 1024 + (y 1).val)

/-- At point n the accumulating store leaves, at place y, what the block held plus the point's addend. -/
theorem step_apply (c : Dev nD) (n : ℕ) (h : n < cfg0.N) (acc : Vec Ideal S2048x1024 .f32) (y : S2048x1024.Idx) :
    k0_pay2 (F := Ideal) acc (iblk m c 0 ⟨n, h⟩) (iblk m c 1 ⟨n, h⟩) y = acc y + addend m c n y := by
  obtain ⟨p, q, rfl⟩ : ∃ (p : Fin 2048) (q : Fin 1024), y = ix2 p q := ⟨y 0, y 1, eq_ix2 y⟩
  refine (pay2_apply acc (iblk m c 0 ⟨n, h⟩) (iblk m c 1 ⟨n, h⟩) p q).trans ?_
  refine congrArg (acc (ix2 p q) + ·) ?_
  unfold addend
  rw [Finset.sum_range]
  refine Finset.sum_congr rfl fun k _ => ?_
  exact congrArg₂ (· * ·) (lhs_block m c ⟨n, h⟩ (ix2 p k)) (rhs_block m c ⟨n, h⟩ (ix2 k q))

end Cert.KernelIdeal.Blocks

end
-- ==== Proof.KernelProduct.lean ====
/-
  The kernel's result is the product with the binary weights.

  The flushing blocks of the output tile the [4096, 4096] array in [2048, 1024] pieces; block (R, C) is resident over
  the run of eight consecutive grid points 8·(4R + C), …, 8·(4R + C) + 7, one per contraction block. The first point
  zeroes the block and adds its product, each later point adds its product, so after the run entry (p, q) of the block
  holds  0 + ∑ s < 8, ∑ k < 512,  x (2048·R + p, 512·s + k) · hard(w) (512·s + k, 1024·C + q).  The eight runs of 512
  contraction coordinates are the 4096 coordinates in order, so this is the textbook product entry
  ∑ K < 4096,  x (i₀, K) · hard(w) (K, i₁)  at the array index i = (2048·R + p, 1024·C + q). Only associativity and
  commutativity of the sum are used, which hold on the extended reals with no finiteness assumption.
-/
import proofs.«147814_j10136122818965_2_alg».proof.Proof.KernelBlocks

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.HardWeight Cert.BlockSums Cert.KernelIdeal.Blocks

variable (m : (ℓ : Loc nD τ sig) → Buf (Elt Ideal) ℓ)

/-- The array the kernel leaves is the textbook product of the two operands the region finds. -/
theorem G2_operands (c : Dev nD) :
    Value.G2 (F := Ideal) m c = mm (a := 4096) (k := 4096) (b := 4096) (V m c main_v0) (V m c main_v3) := by
  funext i
  have hi0 : (i 0).val < 4096 := (i 0).isLt
  have hi1 : (i 1).val < 4096 := (i 1).isLt
  have hrun : Value.run2Of i = 4 * ((i 0).val / 2048 - 0) + 1 * ((i 1).val / 1024 - 0) := rfl
  have l0 : (Value.loc2Of i 0).val = (i 0).val % 2048 := rfl
  have l1 : (Value.loc2Of i 1).val = (i 1).val % 1024 := rfl
  have hlt : 8 * Value.run2Of i + 7 < cfg0.N := by
    rw [show cfg0.N = 64 from N_0, hrun]; omega
  unfold Value.G2
  rw [dif_pos hlt]
  refine (Pipeline.accAt_add_apply (ι := S2048x1024.Idx) (β := EReal) (Value.reset2 m c) (Value.step2 m c) (fun _ => 0)
    (addend m c) (8 * Value.run2Of i) 7
    (fun h y => (step_apply m c (8 * Value.run2Of i) h (k0_pay1 (F := Ideal)) y).trans
      (congrArg (· + addend m c (8 * Value.run2Of i) y) (pay1_apply y)))
    (fun n h acc y _ _ => step_apply m c n h acc y) 7 le_rfl hlt (Value.loc2Of i)).trans ?_
  refine (zero_add _).trans ?_
  rw [mm_eq_sum_range]
  refine Eq.trans ?_ (sum_range_blocks 512
    (fun K => at2 (a := 4096) (b := 4096) (V m c main_v0) (i 0).val K * at2 (a := 4096) (b := 4096) (V m c main_v3) K (i 1).val) 8)
  refine Finset.sum_congr rfl fun s hs => ?_
  have hs' : s < 8 := Finset.mem_range.mp hs
  unfold addend
  refine Finset.sum_congr rfl fun k _ => ?_
  have e1 : (8 * Value.run2Of i + s) / 32 * 2048 + (Value.loc2Of i 0).val = (i 0).val := by rw [l0, hrun]; omega
  have e2 : (8 * Value.run2Of i + s) % 8 * 512 + k = 512 * s + k := by omega
  have e3 : (8 * Value.run2Of i + s) / 8 % 4 * 1024 + (Value.loc2Of i 1).val = (i 1).val := by rw [l1, hrun]; omega
  rw [e1, e2, e3]

/-- The array the kernel leaves is x · hard(w). -/
theorem G2_eq (c : Dev nD) :
    Value.G2 (F := Ideal) m c
      = mm (a := 4096) (k := 4096) (b := 4096) (m ((c : Thread nD τ).loc main_arg0)) (hard (m ((c : Thread nD τ).loc main_arg1))) := by
  rw [G2_operands m c, V_lhs m c, V_rhs m c]

end Cert.KernelIdeal.Whole

end
-- ==== Proof.lean ====
/- A binary-weight matrix product, tiled, against its one-line definition.

   The kernel computes  x · hard(w)  for x, w : [4096, 4096], where hard(w) is the indicator of w > 0 read as a number:
   both operands are prepared outside the region (x narrowed to bf16, which changes no exact value; w binarized), and the
   region walks a 2 × 4 × 8 grid, keeping each [2048, 1024] output block resident over its eight contraction blocks —
   zeroed at the first, each of the eight adding the product of a [2048, 512] piece of x with a [512, 1024] piece of
   hard(w). The reference computes  x · (σ(w) + (hard(w) − σ(w)))  with σ the logistic function, in one product.

   The two agree on the extended reals with no assumption on the inputs:
   · σ(w) is a real number at every extended real w (0 at −∞, 1 at +∞), and for a real a and any extended real h,
     a + (h − a) = h; so the reference's weight is hard(w) entry by entry (Proof/LibHardWeight.lean), and its result is
     the textbook product  ∑ K < 4096, x (p, K) · hard(w) (K, q)  (Proof/ReferenceProduct.lean);
   · after a block's run of eight points entry (p, q) holds 0 plus the eight partial products, a sum over eight
     consecutive runs of 512 contraction coordinates, which is the sum over all 4096 in order (Proof/LibBlockSums.lean,
     Proof/KernelBlocks.lean), so the array the kernel leaves is the same textbook product (Proof/KernelProduct.lean).
   Only associativity and commutativity of addition enter the second point, so the precondition is never opened.

   The kernel's ideal reading rewrites no operation, so that conjunct is trivial; each frame claim is the program's
   value run (or reference run) with the result dropped, and the word-level kernel's is its generated frame. -/
import proofs.«147814_j10136122818965_2_alg».proof.Defs
import proofs.«147814_j10136122818965_2_alg».proof.Proof.Gen.Kernel.Frame
import proofs.«147814_j10136122818965_2_alg».proof.Proof.Gen.KernelIdeal.Value
import proofs.«147814_j10136122818965_2_alg».proof.Proof.Gen.Pre_finite_inputs
import proofs.«147814_j10136122818965_2_alg».proof.Proof.Gen.ReferenceIdeal.Run
import proofs.«147814_j10136122818965_2_alg».proof.Proof.ReferenceProduct
import proofs.«147814_j10136122818965_2_alg».proof.Proof.KernelProduct
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end with  x · hard(w)  in their result: the kernel's array after its tiled run, and the reference's
    one product once the soft part of its weight has cancelled. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2, Cert.KernelIdeal.Whole.G2_eq m c]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
